-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S512x1024 : Shape := ⟨2, ![512, 1024]⟩
abbrev S512x1 : Shape := ⟨2, ![512, 1]⟩
abbrev S1024x512 : Shape := ⟨2, ![1024, 512]⟩
abbrev S512x512 : Shape := ⟨2, ![512, 512]⟩
abbrev S512 : Shape := ⟨1, ![512]⟩

abbrev nBuf : Space → Nat
  | .hbm => 3
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_22 : BitVec 32 := 0#32
  let v43 : BitVec 1 := Scalar.cmpi .ne v42 c0_i32_22
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .bf16 = 32 ∨ (Rect.block (s := S8192x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x1024 : Shape := ⟨2, ![8192, 1024]⟩
abbrev S_ : Shape := ⟨0, ![]⟩
abbrev S8192x8192 : Shape := ⟨2, ![8192, 8192]⟩
abbrev S8192 : Shape := ⟨1, ![8192]⟩
abbrev S8192x1 : Shape := ⟨2, ![8192, 1]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S_, .f32⟩
  | .hbm, ⟨2, _⟩ => ⟨S_, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S8192x1024, .f32⟩
  | .hbm, ⟨21, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S8192x1024_S8192x8192_1_1_0_0_n_n_wf : DotDims.WF S8192x1024 S8192x1024 S8192x8192 [1] [1] [0] [0] [] []
  dot_S8192x8192_S8192x1024_S8192x1024_1_0_0_1_n_n_wf : DotDims.WF S8192x8192 S8192x1024 S8192x1024 [1] [0] [0] [1] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.Pieces.lean ====
/-
  What one run of the kernel body leaves in the buffers it carries from one grid point to the next — the weighted
  sum, the reference value, the normaliser — and, at the last step of a row, in the output block: each is the value
  of the body's last store into that buffer, a pure function of the query block, the key block and what the three
  buffers held before. At the first step of a row the body first resets the buffers, so what they held before does
  not enter.
-/
import proofs.«162803_j45526653337862_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.Attn.Pieces

open Cert.KernelIdeal Cert.KernelIdeal.Gen

variable {F : FTy → Type} [FloatOps F]

theorem hz : (![0, 0] : Fin 2 → Nat) = fun _ => 0 := funext fun a => by fin_cases a <;> rfl

/-! ### A middle step of a row: what it leaves in the three carried buffers -/

theorem acc_B (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i)
    (x0 : Vec F S512x1024 .f32) (x1 : Vec F S512x1024 .bf16) (xs0 : Vec F S512x1024 .f32) (xs1 : Vec F S512x1 .f32) (xs2 : Vec F S512x1 .f32) :
    sout0_B_0 c i arg2 harg2 arg3 harg3 arg4 harg4 arg5 harg5 arg6 harg6 arg7 harg7 hc0 hc1 x0 x1 xs0 xs1 xs2 = k0_pay1 (k0_pay13 x0 x1 xs1 xs1 xs0) := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread,
    View.ld_unit_zero (S := S512x1) hz, View.ld_unit_zero (S := S512x1024) hz]

theorem ref_B (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i)
    (x0 : Vec F S512x1024 .f32) (x1 : Vec F S512x1024 .bf16) (xs0 : Vec F S512x1024 .f32) (xs1 : Vec F S512x1 .f32) (xs2 : Vec F S512x1 .f32) :
    sout0_B_1 c i arg2 harg2 arg3 harg3 arg4 harg4 arg5 harg5 arg6 harg6 arg7 harg7 hc0 hc1 x0 x1 xs0 xs1 xs2 = k0_pay2 (k0_pay9 x0 x1 xs1) := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread,
    View.ld_unit_zero (S := S512x1) hz, View.ld_unit_zero (S := S512x1024) hz]

theorem norm_B (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : ¬cond0_1 i)
    (x0 : Vec F S512x1024 .f32) (x1 : Vec F S512x1024 .bf16) (xs0 : Vec F S512x1024 .f32) (xs1 : Vec F S512x1 .f32) (xs2 : Vec F S512x1 .f32) :
    sout0_B_2 c i arg2 harg2 arg3 harg3 arg4 harg4 arg5 harg5 arg6 harg6 arg7 harg7 hc0 hc1 x0 x1 xs0 xs1 xs2 = k0_pay12 x0 x1 xs1 xs1 xs2 := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread,
    View.ld_unit_zero (S := S512x1) hz, View.ld_unit_zero (S := S512x1024) hz]

/-! ### The last step of a row: what it leaves in the three carried buffers and in the output block -/

theorem acc_C (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i)
    (x0 : Vec F S512x1024 .f32) (x1 : Vec F S512x1024 .bf16) (xs0 : Vec F S512x1024 .f32) (xs1 : Vec F S512x1 .f32) (xs2 : Vec F S512x1 .f32) :
    sout0_C_0 c i arg2 harg2 arg3 harg3 arg4 harg4 arg5 harg5 arg6 harg6 arg7 harg7 hc0 hc1 x0 x1 xs0 xs1 xs2 = k0_pay1 (k0_pay13 x0 x1 xs1 xs1 xs0) := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread,
    View.ld_unit_zero (S := S512x1) hz, View.ld_unit_zero (S := S512x1024) hz]

theorem ref_C (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i)
    (x0 : Vec F S512x1024 .f32) (x1 : Vec F S512x1024 .bf16) (xs0 : Vec F S512x1024 .f32) (xs1 : Vec F S512x1 .f32) (xs2 : Vec F S512x1 .f32) :
    sout0_C_1 c i arg2 harg2 arg3 harg3 arg4 harg4 arg5 harg5 arg6 harg6 arg7 harg7 hc0 hc1 x0 x1 xs0 xs1 xs2 = k0_pay2 (k0_pay9 x0 x1 xs1) := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread,
    View.ld_unit_zero (S := S512x1) hz, View.ld_unit_zero (S := S512x1024) hz]

theorem norm_C (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i)
    (x0 : Vec F S512x1024 .f32) (x1 : Vec F S512x1024 .bf16) (xs0 : Vec F S512x1024 .f32) (xs1 : Vec F S512x1 .f32) (xs2 : Vec F S512x1 .f32) :
    sout0_C_2 c i arg2 harg2 arg3 harg3 arg4 harg4 arg5 harg5 arg6 harg6 arg7 harg7 hc0 hc1 x0 x1 xs0 xs1 xs2 = k0_pay12 x0 x1 xs1 xs1 xs2 := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread,
    View.ld_unit_zero (S := S512x1) hz, View.ld_unit_zero (S := S512x1024) hz]

theorem out_C (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (hc0 : ¬cond0_0 i) (hc1 : cond0_1 i)
    (x0 : Vec F S512x1024 .f32) (x1 : Vec F S512x1024 .bf16) (xs0 : Vec F S512x1024 .f32) (xs1 : Vec F S512x1 .f32) (xs2 : Vec F S512x1 .f32) :
    out0_C_2 c i arg2 harg2 arg3 harg3 arg4 harg4 arg5 harg5 arg6 harg6 arg7 harg7 hc0 hc1 x0 x1 xs0 xs1 xs2 = k0_pay3 x0 (k0_pay1 (k0_pay13 x0 x1 xs1 xs1 xs0)) (k0_pay12 x0 x1 xs1 xs1 xs2) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread,
    View.ld_unit_zero (S := S512x1) hz, View.ld_unit_zero (S := S512x1024) hz]
  rw [View.readCov_unit_zero (S := S512x1024) arg5.view hz, View.readCov_unit_zero (S := S512x1) arg7.view hz]

/-! ### The first step of a row: the three buffers are reset (to -∞, 0, 0) and then updated -/

theorem acc_A (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i)
    (x0 : Vec F S512x1024 .f32) (x1 : Vec F S512x1024 .bf16) :
    sout0_A_0 c i arg2 harg2 arg3 harg3 arg4 harg4 arg5 harg5 arg6 harg6 arg7 harg7 hc0 hc1 x0 x1 = k0_pay1 (k0_pay13 x0 x1 k0_pay4 k0_pay4 k0_pay6) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S512x1024) hz, View.readCov_unit_zero (S := S512x1024) _ hz]
  simp only [View.readAt_eq_ld, harg2.read_unread, harg3.read_unread, harg4.read_unread, harg5.read_unread, harg6.read_unread, harg7.read_unread,
    View.ld_unit_zero (S := S512x1) hz, View.ld_unit_zero (S := S512x1024) hz]
  rw [View.readCov_unit_zero (S := S512x1) arg6.view hz]

theorem ref_A (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i)
    (x0 : Vec F S512x1024 .f32) (x1 : Vec F S512x1024 .bf16) :
    sout0_A_1 c i arg2 harg2 arg3 harg3 arg4 harg4 arg5 harg5 arg6 harg6 arg7 harg7 hc0 hc1 x0 x1 = k0_pay2 (k0_pay9 x0 x1 k0_pay4) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg6.read_unread, harg7.read_unread,
    View.ld_unit_zero (S := S512x1) hz, View.ld_unit_zero (S := S512x1024) hz]

theorem norm_A (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (hc0 : cond0_0 i) (hc1 : ¬cond0_1 i)
    (x0 : Vec F S512x1024 .f32) (x1 : Vec F S512x1024 .bf16) :
    sout0_A_2 c i arg2 harg2 arg3 harg3 arg4 harg4 arg5 harg5 arg6 harg6 arg7 harg7 hc0 hc1 x0 x1 = k0_pay12 x0 x1 k0_pay4 k0_pay4 k0_pay5 := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg6.read_unread, harg7.read_unread,
    View.ld_unit_zero (S := S512x1) hz, View.ld_unit_zero (S := S512x1024) hz]
  rw [View.readCov_unit_zero (S := S512x1) arg7.view hz]

end Cert.Attn.Pieces

end
-- ==== Proof.Spec.lean ====
/-
  The function both programs compute, over the reals.

  For a finite array x of 8192 rows of 1024 entries, with real entries X t d:
    the score of row t against row s is   σ t s = (∑ d, X t d * X s d) / 32        (32 = √1024),
    and the result at (t, d) is           X t d + (∑ s, exp (σ t s) * X s d) / (∑ s, exp (σ t s)),
  the row itself plus the softmax-weighted average of all rows. The weights exp (σ t s) / ∑ exp (σ t s') do not
  change when one real number is subtracted from every score of the row, which is why a program may subtract the row's
  maximum, or any running value, before exponentiating.
-/
import Idealize.ShloMosaic.Lib.ValueIdx
import Idealize.ShloMosaic.PureOps.Ideal.Laws

noncomputable section

namespace Cert.Attn

open Idealize.ShloMosaic Idealize.ShloMosaic.ValueIdx

/-- The index set of the argument and of the result: 8192 rows, 1024 columns. -/
abbrev Arr : Shape := ⟨2, ![8192, 1024]⟩

/-- The real entry of the array at row t, column d (the entry itself when it is finite). -/
def entry (x : Arr.Idx → EReal) (t : Fin 8192) (d : Fin 1024) : ℝ := (x (ix2 t d)).toReal

/-- The scaled inner product of rows t and s. -/
def score (X : Fin 8192 → Fin 1024 → ℝ) (t s : Fin 8192) : ℝ := (∑ d : Fin 1024, X t d * X s d) / 32

/-- Row t plus the softmax-weighted average of the rows, at column d. -/
def attend (X : Fin 8192 → Fin 1024 → ℝ) (t : Fin 8192) (d : Fin 1024) : ℝ :=
  X t d + (∑ s : Fin 8192, Real.exp (score X t s) * X s d) / (∑ s : Fin 8192, Real.exp (score X t s))

/-- The result array as a function of the argument array. -/
def G (x : Arr.Idx → EReal) : Arr.Idx → EReal := fun i => ((attend (entry x) (i 0) (i 1) : ℝ) : EReal)

/-- Every entry of the array is a real number. -/
def Finite (x : Arr.Idx → EReal) : Prop := ∀ i, x i ≠ ⊤ ∧ x i ≠ ⊥

theorem Finite.eq_coe {x : Arr.Idx → EReal} (h : Finite x) (t : Fin 8192) (d : Fin 1024) :
    x (ix2 t d) = ((entry x t d : ℝ) : EReal) :=
  (EReal.coe_toReal (h _).1 (h _).2).symm

end Cert.Attn

end
-- ==== Proof.SoftmaxLaw.lean ====
/-
  Streaming softmax on the reals.

  Subtracting one real number c from every score of a row changes neither the softmax weights nor the weighted
  average they give: exp (f s - c) = exp (f s) * exp (-c), and the common factor exp (-c) cancels between the
  numerator and the normaliser. A running computation may therefore keep partial sums relative to ANY real reference
  value m, and move them to a new reference value m' by the factor exp (m - m').
  Also: a finite sum of real numbers, and a maximum of finitely many real numbers taken from -∞, are real numbers
  inside the extended reals.
-/
import proofs.«162803_j45526653337862_2_alg».proof.Proof.Spec

noncomputable section

namespace Cert.Attn

/-- The inclusion of the reals in the extended reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The maximum, taken from -∞, of a nonempty finite family of real numbers is a real number. -/
theorem fold_max_coe {ι : Type*} (s : Finset ι) (hs : s.Nonempty) (f : ι → ℝ) :
    ∃ r : ℝ, s.fold max (⊥ : EReal) (fun k => ((f k : ℝ) : EReal)) = ((r : ℝ) : EReal) := by
  classical
  induction hs using Finset.Nonempty.cons_induction with
  | singleton a =>
    refine ⟨f a, ?_⟩
    rw [Finset.fold_singleton]
    exact max_eq_left bot_le
  | cons a s ha hs ih =>
    obtain ⟨r, hr⟩ := ih
    refine ⟨max (f a) r, ?_⟩
    rw [Finset.fold_cons, hr]
    exact (EReal.coe_strictMono.monotone.map_max).symm

/-- Moving an exponential weight from the reference value mo to the reference value mn. -/
theorem exp_rescale (mo mn f : ℝ) : Real.exp (mo - mn) * Real.exp (f - mo) = Real.exp (f - mn) := by
  rw [← Real.exp_add]
  congr 1
  ring

/-- A nonempty finite sum of exponentials is positive. -/
theorem sum_exp_pos {ι : Type*} [Fintype ι] [Nonempty ι] (f : ι → ℝ) : 0 < ∑ s, Real.exp (f s) :=
  Finset.sum_pos (fun s _ => Real.exp_pos (f s)) Finset.univ_nonempty

/-- The weighted average does not depend on the reference value: quotient-of-sums form. -/
theorem softmax_shift_quot {ι : Type*} [Fintype ι] [Nonempty ι] (f g : ι → ℝ) (c : ℝ) :
    (∑ s, Real.exp (f s - c) * g s) / (∑ s, Real.exp (f s - c))
      = (∑ s, Real.exp (f s) * g s) / (∑ s, Real.exp (f s)) := by
  have hc : Real.exp (-c) ≠ 0 := (Real.exp_pos _).ne'
  have h1 : ∀ s, Real.exp (f s - c) = Real.exp (-c) * Real.exp (f s) := fun s => by
    rw [← Real.exp_add]; congr 1; ring
  have hn : (∑ s, Real.exp (f s - c) * g s) = Real.exp (-c) * ∑ s, Real.exp (f s) * g s := by
    rw [Finset.mul_sum]; exact Finset.sum_congr rfl fun s _ => by rw [h1 s, mul_assoc]
  have hd : (∑ s, Real.exp (f s - c)) = Real.exp (-c) * ∑ s, Real.exp (f s) := by
    rw [Finset.mul_sum]; exact Finset.sum_congr rfl fun s _ => h1 s
  rw [hn, hd, mul_div_mul_left _ _ hc]

/-- The weighted average does not depend on the reference value: sum-of-normalised-weights form. -/
theorem softmax_shift_sum {ι : Type*} [Fintype ι] [Nonempty ι] (f g : ι → ℝ) (c : ℝ) :
    ∑ s, (Real.exp (f s - c) / ∑ s', Real.exp (f s' - c)) * g s
      = (∑ s, Real.exp (f s) * g s) / (∑ s, Real.exp (f s)) := by
  rw [← softmax_shift_quot f g c, Finset.sum_div]
  exact Finset.sum_congr rfl fun s _ => by rw [div_mul_eq_mul_div]

end Cert.Attn

end
-- ==== Proof.Payload.lean ====
/-
  One step of the streaming softmax, read entry by entry.

  A step sees a block of 512 query rows Q and a block of 512 key rows K (which are also the value rows). With
  the block scores  b r j = (∑ d, Q r d * K j d) / 32,  a previous reference value μ r, normaliser L r and weighted
  sum A r d for each query row r, the step computes
      the new reference value  μ' r = max (μ r) (max over j of b r j),
      the rescale factor       exp (μ r - μ' r),
      the weights              exp (b r j - μ' r),
      the new normaliser       exp (μ r - μ' r) * L r + ∑ j, exp (b r j - μ' r),
      the new weighted sum     exp (μ r - μ' r) * A r d + ∑ j, exp (b r j - μ' r) * K j d.
  At the first step of a row the previous reference value is -∞ and L, A are 0: exp (-∞) = 0 removes the first
  summands. The last step also forms Q r d + A r d / L r.
  The factor 1/32 applied to the query rows before the inner product is the division of the inner product by 32.
-/
import proofs.«162803_j45526653337862_2_alg».proof.Proof.Gen.KernelIdeal.Skeleton
import proofs.«162803_j45526653337862_2_alg».proof.Proof.SoftmaxLaw
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Step

open Idealize.ShloMosaic Idealize.ShloMosaic.ValueIdx Cert.KernelIdeal Cert.KernelIdeal.Gen

/-- The scaled inner product of query row r and key row j of the two blocks. -/
def bscore (Q K : Fin 512 → Fin 1024 → ℝ) (r j : Fin 512) : ℝ := (∑ d : Fin 1024, Q r d * K j d) / 32

/-- The word 0x3D000000 is the real number 1/32. -/
private theorem ofBits_inv32 : Ideal.ofBits .f32 0x3D000000#32 = ((1 / 32 : ℝ) : EReal) := by
  simp [Ideal.ofBits, Ideal.ieee]
  rw [← EReal.coe_mul]
  exact congrArg _ (by norm_num)

/-- The word 0xFF800000 is -∞. -/
private theorem ofBits_neg_inf : Ideal.ofBits .f32 0xFF800000#32 = (⊥ : EReal) := by
  simp [Ideal.ofBits, Ideal.ieee]

section Layout
variable {α : Type}

/-- A vector of 512 entries cast to a column reads, at row r, its r-th entry. -/
private theorem shapeCast_col (v : S512.Idx → α) (h : S512.ShapeCasts S512x1) (r : Fin 512) :
    shapeCast S512x1 v h (ix2 r (0 : Fin 1)) = v (ix1 r) :=
  shapeCast_apply v h _ _ (by
    rw [Shape.rowMajor_val_one, Shape.rowMajor_val_two]
    show r.val = r.val * 1 + 0
    omega)

/-- A column broadcast along rows of 512 entries reads, at (r, j), the column's entry at r. -/
private theorem broadcastTo_col_512 (v : S512x1.Idx → α) (h : S512x1.Broadcasts S512x512) (r j : Fin 512) :
    broadcastTo S512x512 v h (ix2 r j) = v (ix2 r (0 : Fin 1)) :=
  broadcastTo_apply v h _ _ fun a => match a with
    | ⟨0, _⟩ => by show r.val = if (512 : Nat) = 1 then 0 else r.val; rw [if_neg (by decide)]
    | ⟨1, _⟩ => by show 0 = if (1 : Nat) = 1 then 0 else j.val; rw [if_pos rfl]

/-- A column broadcast along rows of 1024 entries reads, at (r, d), the column's entry at r. -/
private theorem broadcastTo_col_1024 (v : S512x1.Idx → α) (h : S512x1.Broadcasts S512x1024) (r : Fin 512) (d : Fin 1024) :
    broadcastTo S512x1024 v h (ix2 r d) = v (ix2 r (0 : Fin 1)) :=
  broadcastTo_apply v h _ _ fun a => match a with
    | ⟨0, _⟩ => by show r.val = if (512 : Nat) = 1 then 0 else r.val; rw [if_neg (by decide)]
    | ⟨1, _⟩ => by show 0 = if (1 : Nat) = 1 then 0 else d.val; rw [if_pos rfl]

/-- The index of a 512 × 512 array that a reduction along its rows reads at row r, position k. -/
private theorem lift_row (h : S512x512.Reduces [1] S512) (r k : Fin 512) : h.lift (ix1 r) k = ix2 r k :=
  funext fun a => Fin.ext (by match a with | ⟨0, _⟩ => rfl | ⟨1, _⟩ => rfl)

end Layout

/-! ### The two products read at an index -/

section Products

/-! The operand indices of the first product, queries [512, 1024] times transposed keys [1024, 512]: at the result
index i and the contraction coordinate q the left operand is read at (i 0, q) and the right one at (q, i 1). -/

private theorem dot1_lhs0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl
private theorem dot1_lhs1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
private theorem dot1_rhs0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
private theorem dot1_rhs1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- The first product at (r, j): the sum over d of the left factor at (r, d) times the right factor at (d, j). -/
private theorem dot1_apply (l : FVec Ideal S512x1024 .bf16) (t : FVec Ideal S1024x512 .bf16) (r j : Fin 512) :
    matmul dot_S512x1024_S1024x512_S512x512_1_0_0_1_n_n none l t (constant (F := Ideal) S512x512 .f32 0x00000000#32) (ix2 r j)
      = ∑ d : Fin 1024, l (ix2 r d) * t (ix2 d j) := by
  simp only [matmul]
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 r j) ((contrEquiv1 dot_S512x1024_S1024x512_S512x512_1_0_0_1_n_n 1024 rfl rfl).symm k) = ix2 r k :=
    funext fun a => Fin.ext (by
      match a with
      | ⟨0, _⟩ => exact dot1_lhs0 _ _
      | ⟨1, _⟩ => exact (dot1_lhs1 _ _).trans hk)
  have er : dot_S512x1024_S1024x512_S512x512_1_0_0_1_n_n.rhsIdx (ix2 r j) ((contrEquiv1 dot_S512x1024_S1024x512_S512x512_1_0_0_1_n_n 1024 rfl rfl).symm k) = ix2 k j :=
    funext fun a => Fin.ext (by
      match a with
      | ⟨0, _⟩ => exact (dot1_rhs0 _ _).trans hk
      | ⟨1, _⟩ => exact dot1_rhs1 _ _)
  rw [el, er]

/-! The operand indices of the second product, weights [512, 512] times keys [512, 1024]: at the result index i and the
contraction coordinate q the left operand is read at (i 0, q) and the right one at (q, i 1). -/

private theorem dot2_lhs0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl
private theorem dot2_lhs1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
private theorem dot2_rhs0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
private theorem dot2_rhs1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- The second product at (r, d): the sum over j of the left factor at (r, j) times the right factor at (j, d). -/
private theorem dot2_apply (l : FVec Ideal S512x512 .bf16) (t : FVec Ideal S512x1024 .bf16) (r : Fin 512) (d : Fin 1024) :
    matmul dot_S512x512_S512x1024_S512x1024_1_0_0_1_n_n none l t (constant (F := Ideal) S512x1024 .f32 0x00000000#32) (ix2 r d)
      = ∑ j : Fin 512, l (ix2 r j) * t (ix2 j d) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 r d) ((contrEquiv1 dot_S512x512_S512x1024_S512x1024_1_0_0_1_n_n 512 rfl rfl).symm k) = ix2 r k :=
    funext fun a => Fin.ext (by
      match a with
      | ⟨0, _⟩ => exact dot2_lhs0 _ _
      | ⟨1, _⟩ => exact (dot2_lhs1 _ _).trans hk)
  have er : dot_S512x512_S512x1024_S512x1024_1_0_0_1_n_n.rhsIdx (ix2 r d) ((contrEquiv1 dot_S512x512_S512x1024_S512x1024_1_0_0_1_n_n 512 rfl rfl).symm k) = ix2 k d :=
    funext fun a => Fin.ext (by
      match a with
      | ⟨0, _⟩ => exact (dot2_rhs0 _ _).trans hk
      | ⟨1, _⟩ => exact dot2_rhs1 _ _)
  rw [el, er]

end Products

/-! ### The two row reductions read at a row -/

section Reductions

/-- The maximum along a row, taken from -∞: the fold of max over the row's 512 entries. -/
private theorem rowMax_apply (src : FVec Ideal S512x512 .f32) (r : Fin 512) :
    multiReduction (F := Ideal) .maximumf [1] S512 src 0xFF800000#32 reduces_S512x512_S512 (.inl rfl) rfl (ix1 r)
      = (Finset.univ : Finset (Fin 512)).fold max (⊥ : EReal) (fun j => src (ix2 r j)) := by
  refine (Ideal.multiReduction_maximumf_single src _ reduces_S512x512_S512 _ _ (ix1 r)).trans ?_
  show (Finset.univ : Finset (Fin 512)).fold max (Ideal.ofBits .f32 0xFF800000#32)
      (fun j => src (reduces_S512x512_S512.lift (ix1 r) j)) = _
  rw [ofBits_neg_inf]
  exact congrArg (fun f => Finset.fold max (⊥ : EReal) f (Finset.univ : Finset (Fin 512)))
    (funext fun j => congrArg src (lift_row _ r j))

/-- The sum along a row: the sum of the row's 512 entries. -/
private theorem rowSum_apply (src : FVec Ideal S512x512 .f32) (r : Fin 512) :
    multiReduction (F := Ideal) .add [1] S512 src 0x00000000#32 reduces_S512x512_S512 (.inl rfl) rfl (ix1 r)
      = ∑ j : Fin 512, src (ix2 r j) := by
  refine (Ideal.multiReduction_add_single src _ reduces_S512x512_S512 _ _ (ix1 r)).trans ?_
  show ∑ j : Fin 512, src (reduces_S512x512_S512.lift (ix1 r) j) = _
  exact Finset.sum_congr rfl fun j _ => congrArg src (lift_row _ r j)

end Reductions

variable (x0 : Vec Ideal S512x1024 .f32) (x1 : Vec Ideal S512x1024 .bf16)
variable (Q K : Fin 512 → Fin 1024 → ℝ)

/-- The new reference value of query row r, as a real number (it is one: newRef_real and newRef_real_first). -/
def newRef (v11 : Vec Ideal S512x1 .f32) (r : Fin 512) : ℝ := (k0_pay9 (F := Ideal) x0 x1 v11 (ix2 r 0)).toReal

/-- The block scores. -/
theorem scores_apply (hq : ∀ r d, x0 (ix2 r d) = ((Q r d : ℝ) : EReal)) (hk : ∀ j d, x1 (ix2 j d) = ((K j d : ℝ) : EReal))
    (r j : Fin 512) : k0_pay8 (F := Ideal) x0 x1 (ix2 r j) = ((bscore Q K r j : ℝ) : EReal) := by
  unfold k0_pay8
  refine (dot1_apply _ _ r j).trans ?_
  -- one summand: (Q r d * (1/32)) * K j d
  refine (Finset.sum_congr rfl fun d _ => (?_ : _ = ((Q r d * (1 / 32) : ℝ) : EReal) * ((K j d : ℝ) : EReal))).trans ?_
  · refine congrArg₂ (· * ·) ?_ ?_
    · show x0 (ix2 r d) * Ideal.ofBits .f32 0x3D000000#32 = _
      rw [hq, ofBits_inv32, ← EReal.coe_mul]
    · exact (transpose_ix2_apply _ _ d j).trans ((congrFun (shapeCast_self x1 _) _).trans (hk j d))
  -- the sum, in the reals
  simp only [← EReal.coe_mul]
  rw [← Cert.Attn.coe_sum]
  refine congrArg _ ?_
  unfold bscore
  rw [Finset.sum_div]
  exact Finset.sum_congr rfl fun d _ => by ring

/-- The new reference value: the larger of the previous value and the row's largest score. -/
private theorem pay9_eq (hq : ∀ r d, x0 (ix2 r d) = ((Q r d : ℝ) : EReal)) (hk : ∀ j d, x1 (ix2 j d) = ((K j d : ℝ) : EReal))
    (v11 : Vec Ideal S512x1 .f32) (r : Fin 512) :
    k0_pay9 (F := Ideal) x0 x1 v11 (ix2 r 0)
      = max (v11 (ix2 r 0))
          ((Finset.univ : Finset (Fin 512)).fold max (⊥ : EReal) (fun j => ((bscore Q K r j : ℝ) : EReal))) := by
  unfold k0_pay9
  refine (maximumf_apply _ _ _).trans (congrArg (max (v11 (ix2 r 0))) ?_)
  refine (shapeCast_col _ _ r).trans ((rowMax_apply _ r).trans ?_)
  exact congrArg (fun f => Finset.fold max (⊥ : EReal) f (Finset.univ : Finset (Fin 512)))
    (funext fun j => scores_apply x0 x1 Q K hq hk r j)

/-- The value at every entry of the first step's previous reference values: -∞. -/
private theorem pay4_apply (i : S512x1.Idx) : k0_pay4 (F := Ideal) i = (⊥ : EReal) := by
  unfold k0_pay4
  exact (congrFun (shapeCast_self _ _) i).trans ofBits_neg_inf

/-- The value at every entry of the first step's previous normalisers: 0. -/
private theorem pay5_apply (i : S512x1.Idx) : k0_pay5 (F := Ideal) i = (0 : EReal) := by
  unfold k0_pay5
  exact (congrFun (shapeCast_self _ _) i).trans Ideal.ofBits_zero_f32

/-- The value at every entry of the first step's previous weighted sums: 0. -/
private theorem pay6_apply (i : S512x1024.Idx) : k0_pay6 (F := Ideal) i = (0 : EReal) := by
  unfold k0_pay6
  exact (congrFun (shapeCast_self _ _) i).trans Ideal.ofBits_zero_f32

/-! ### A later step of a row: the previous reference value is a real number -/

theorem newRef_real (hq : ∀ r d, x0 (ix2 r d) = ((Q r d : ℝ) : EReal)) (hk : ∀ j d, x1 (ix2 j d) = ((K j d : ℝ) : EReal))
    (v11 : Vec Ideal S512x1 .f32) (μ : Fin 512 → ℝ) (hm : ∀ r, v11 (ix2 r 0) = ((μ r : ℝ) : EReal)) (r : Fin 512) :
    k0_pay9 (F := Ideal) x0 x1 v11 (ix2 r 0) = ((newRef x0 x1 v11 r : ℝ) : EReal) := by
  obtain ⟨m, hmax⟩ := Cert.Attn.fold_max_coe (Finset.univ : Finset (Fin 512)) Finset.univ_nonempty (fun j => bscore Q K r j)
  have h9 : k0_pay9 (F := Ideal) x0 x1 v11 (ix2 r 0) = ((max (μ r) m : ℝ) : EReal) := by
    rw [pay9_eq x0 x1 Q K hq hk v11 r, hm r, hmax]
    exact (EReal.coe_strictMono.monotone.map_max).symm
  unfold newRef
  rw [h9, EReal.toReal_coe]

/-- The weights, given that the new reference values are real numbers. -/
private theorem weights_apply (hq : ∀ r d, x0 (ix2 r d) = ((Q r d : ℝ) : EReal)) (hk : ∀ j d, x1 (ix2 j d) = ((K j d : ℝ) : EReal))
    (v11 : Vec Ideal S512x1 .f32)
    (hN : ∀ r, k0_pay9 (F := Ideal) x0 x1 v11 (ix2 r 0) = ((newRef x0 x1 v11 r : ℝ) : EReal)) (r j : Fin 512) :
    k0_pay11 (F := Ideal) x0 x1 v11 (ix2 r j) = ((Real.exp (bscore Q K r j - newRef x0 x1 v11 r) : ℝ) : EReal) := by
  unfold k0_pay11
  show Ideal.exp (k0_pay8 (F := Ideal) x0 x1 (ix2 r j)
    - broadcastTo S512x512 (k0_pay9 (F := Ideal) x0 x1 v11) broadcasts_S512x1_S512x512 (ix2 r j)) = _
  rw [broadcastTo_col_512, scores_apply x0 x1 Q K hq hk r j, hN r, ← EReal.coe_sub, Ideal.exp_coe]

/-- The row sum of the weights, given that the new reference values are real numbers. -/
private theorem weights_sum (hq : ∀ r d, x0 (ix2 r d) = ((Q r d : ℝ) : EReal)) (hk : ∀ j d, x1 (ix2 j d) = ((K j d : ℝ) : EReal))
    (v11 : Vec Ideal S512x1 .f32)
    (hN : ∀ r, k0_pay9 (F := Ideal) x0 x1 v11 (ix2 r 0) = ((newRef x0 x1 v11 r : ℝ) : EReal)) (r : Fin 512) :
    shapeCast S512x1 (multiReduction (F := Ideal) .add [1] S512 (k0_pay11 (F := Ideal) x0 x1 v11) 0x00000000#32
        reduces_S512x512_S512 (.inl rfl) rfl) shapeCasts_S512_S512x1 (ix2 r (0 : Fin 1))
      = ((∑ j : Fin 512, Real.exp (bscore Q K r j - newRef x0 x1 v11 r) : ℝ) : EReal) := by
  refine (shapeCast_col _ _ r).trans ((rowSum_apply _ r).trans ?_)
  rw [Cert.Attn.coe_sum]
  exact Finset.sum_congr rfl fun j _ => weights_apply x0 x1 Q K hq hk v11 hN r j

/-- The second product of a step, given that the new reference values are real numbers. -/
private theorem weights_dot (hq : ∀ r d, x0 (ix2 r d) = ((Q r d : ℝ) : EReal)) (hk : ∀ j d, x1 (ix2 j d) = ((K j d : ℝ) : EReal))
    (v11 : Vec Ideal S512x1 .f32)
    (hN : ∀ r, k0_pay9 (F := Ideal) x0 x1 v11 (ix2 r 0) = ((newRef x0 x1 v11 r : ℝ) : EReal)) (r : Fin 512) (d : Fin 1024) :
    matmul dot_S512x512_S512x1024_S512x1024_1_0_0_1_n_n none
        (truncf .bf16 (k0_pay11 (F := Ideal) x0 x1 v11) bitsLt_bf16_f32) (k0_pay7 (F := Ideal) x1)
        (constant (F := Ideal) S512x1024 .f32 0x00000000#32) (ix2 r d)
      = ((∑ j : Fin 512, Real.exp (bscore Q K r j - newRef x0 x1 v11 r) * K j d : ℝ) : EReal) := by
  refine (dot2_apply _ _ r d).trans ?_
  rw [Cert.Attn.coe_sum]
  refine Finset.sum_congr rfl fun j _ => ?_
  rw [EReal.coe_mul]
  refine congrArg₂ (· * ·) ?_ ?_
  · exact weights_apply x0 x1 Q K hq hk v11 hN r j
  · exact (congrFun (shapeCast_self x1 _) _).trans (hk j d)

theorem factor_apply (hq : ∀ r d, x0 (ix2 r d) = ((Q r d : ℝ) : EReal)) (hk : ∀ j d, x1 (ix2 j d) = ((K j d : ℝ) : EReal))
    (v11 : Vec Ideal S512x1 .f32) (μ : Fin 512 → ℝ) (hm : ∀ r, v11 (ix2 r 0) = ((μ r : ℝ) : EReal)) (r : Fin 512) :
    k0_pay10 (F := Ideal) x0 x1 v11 v11 (ix2 r 0) = ((Real.exp (μ r - newRef x0 x1 v11 r) : ℝ) : EReal) := by
  unfold k0_pay10
  show Ideal.exp (v11 (ix2 r 0) - k0_pay9 (F := Ideal) x0 x1 v11 (ix2 r 0)) = _
  rw [hm r, newRef_real x0 x1 Q K hq hk v11 μ hm r, ← EReal.coe_sub, Ideal.exp_coe]

theorem norm_apply (hq : ∀ r d, x0 (ix2 r d) = ((Q r d : ℝ) : EReal)) (hk : ∀ j d, x1 (ix2 j d) = ((K j d : ℝ) : EReal))
    (v11 : Vec Ideal S512x1 .f32) (μ : Fin 512 → ℝ) (hm : ∀ r, v11 (ix2 r 0) = ((μ r : ℝ) : EReal))
    (v21 : Vec Ideal S512x1 .f32) (L : Fin 512 → ℝ) (hl : ∀ r, v21 (ix2 r 0) = ((L r : ℝ) : EReal)) (r : Fin 512) :
    k0_pay12 (F := Ideal) x0 x1 v11 v11 v21 (ix2 r 0)
      = ((Real.exp (μ r - newRef x0 x1 v11 r) * L r + ∑ j : Fin 512, Real.exp (bscore Q K r j - newRef x0 x1 v11 r) : ℝ) : EReal) := by
  unfold k0_pay12
  refine (congrFun (shapeCast_self _ _) _).trans ((addf_apply _ _ _).trans ?_)
  rw [EReal.coe_add, EReal.coe_mul]
  refine congrArg₂ (· + ·) ((mulf_apply _ _ _).trans (congrArg₂ (· * ·) ?_ (hl r))) ?_
  · exact factor_apply x0 x1 Q K hq hk v11 μ hm r
  · exact weights_sum x0 x1 Q K hq hk v11 (newRef_real x0 x1 Q K hq hk v11 μ hm) r

theorem acc_apply (hq : ∀ r d, x0 (ix2 r d) = ((Q r d : ℝ) : EReal)) (hk : ∀ j d, x1 (ix2 j d) = ((K j d : ℝ) : EReal))
    (v11 : Vec Ideal S512x1 .f32) (μ : Fin 512 → ℝ) (hm : ∀ r, v11 (ix2 r 0) = ((μ r : ℝ) : EReal))
    (v31 : Vec Ideal S512x1024 .f32) (A : Fin 512 → Fin 1024 → ℝ) (ha : ∀ r d, v31 (ix2 r d) = ((A r d : ℝ) : EReal))
    (r : Fin 512) (d : Fin 1024) :
    k0_pay13 (F := Ideal) x0 x1 v11 v11 v31 (ix2 r d)
      = ((Real.exp (μ r - newRef x0 x1 v11 r) * A r d
          + ∑ j : Fin 512, Real.exp (bscore Q K r j - newRef x0 x1 v11 r) * K j d : ℝ) : EReal) := by
  unfold k0_pay13
  refine (addf_apply _ _ _).trans ?_
  rw [EReal.coe_add, EReal.coe_mul]
  refine congrArg₂ (· + ·) ((mulf_apply _ _ _).trans (congrArg₂ (· * ·) ?_ (ha r d))) ?_
  · exact (broadcastTo_col_1024 _ _ r d).trans (factor_apply x0 x1 Q K hq hk v11 μ hm r)
  · exact weights_dot x0 x1 Q K hq hk v11 (newRef_real x0 x1 Q K hq hk v11 μ hm) r d

/-! ### The first step of a row: the previous reference value is -∞, the normaliser and the weighted sum are 0 -/

theorem newRef_real_first (hq : ∀ r d, x0 (ix2 r d) = ((Q r d : ℝ) : EReal)) (hk : ∀ j d, x1 (ix2 j d) = ((K j d : ℝ) : EReal))
    (r : Fin 512) :
    k0_pay9 (F := Ideal) x0 x1 (k0_pay4 (F := Ideal)) (ix2 r 0) = ((newRef x0 x1 (k0_pay4 (F := Ideal)) r : ℝ) : EReal) := by
  obtain ⟨m, hmax⟩ := Cert.Attn.fold_max_coe (Finset.univ : Finset (Fin 512)) Finset.univ_nonempty (fun j => bscore Q K r j)
  have h9 : k0_pay9 (F := Ideal) x0 x1 (k0_pay4 (F := Ideal)) (ix2 r 0) = ((m : ℝ) : EReal) := by
    rw [pay9_eq x0 x1 Q K hq hk (k0_pay4 (F := Ideal)) r, pay4_apply, hmax]
    exact max_bot_left _
  unfold newRef
  rw [h9, EReal.toReal_coe]

/-- The rescale factor of a first step: exp (-∞ - real) = exp (-∞) = 0. -/
private theorem factor_first (hq : ∀ r d, x0 (ix2 r d) = ((Q r d : ℝ) : EReal)) (hk : ∀ j d, x1 (ix2 j d) = ((K j d : ℝ) : EReal))
    (r : Fin 512) :
    k0_pay10 (F := Ideal) x0 x1 (k0_pay4 (F := Ideal)) (k0_pay4 (F := Ideal)) (ix2 r 0) = (0 : EReal) := by
  unfold k0_pay10
  show Ideal.exp (k0_pay4 (F := Ideal) (ix2 r 0) - k0_pay9 (F := Ideal) x0 x1 (k0_pay4 (F := Ideal)) (ix2 r 0)) = _
  rw [pay4_apply, EReal.bot_sub, Ideal.exp_bot]

theorem norm_apply_first (hq : ∀ r d, x0 (ix2 r d) = ((Q r d : ℝ) : EReal)) (hk : ∀ j d, x1 (ix2 j d) = ((K j d : ℝ) : EReal))
    (r : Fin 512) :
    k0_pay12 (F := Ideal) x0 x1 (k0_pay4 (F := Ideal)) (k0_pay4 (F := Ideal)) (k0_pay5 (F := Ideal)) (ix2 r 0)
      = ((∑ j : Fin 512, Real.exp (bscore Q K r j - newRef x0 x1 (k0_pay4 (F := Ideal)) r) : ℝ) : EReal) := by
  unfold k0_pay12
  refine (congrFun (shapeCast_self _ _) _).trans ((addf_apply _ _ _).trans ?_)
  refine (congrArg₂ (· + ·) ((mulf_apply _ _ _).trans (congrArg₂ (· * ·) (factor_first x0 x1 Q K hq hk r) (pay5_apply _)))
    (weights_sum x0 x1 Q K hq hk (k0_pay4 (F := Ideal)) (newRef_real_first x0 x1 Q K hq hk) r)).trans ?_
  rw [mul_zero, zero_add]

theorem acc_apply_first (hq : ∀ r d, x0 (ix2 r d) = ((Q r d : ℝ) : EReal)) (hk : ∀ j d, x1 (ix2 j d) = ((K j d : ℝ) : EReal))
    (r : Fin 512) (d : Fin 1024) :
    k0_pay13 (F := Ideal) x0 x1 (k0_pay4 (F := Ideal)) (k0_pay4 (F := Ideal)) (k0_pay6 (F := Ideal)) (ix2 r d)
      = ((∑ j : Fin 512, Real.exp (bscore Q K r j - newRef x0 x1 (k0_pay4 (F := Ideal)) r) * K j d : ℝ) : EReal) := by
  unfold k0_pay13
  refine (addf_apply _ _ _).trans ?_
  refine (congrArg₂ (· + ·) ((mulf_apply _ _ _).trans (congrArg₂ (· * ·)
      ((broadcastTo_col_1024 _ _ r d).trans (factor_first x0 x1 Q K hq hk r)) (pay6_apply _)))
    (weights_dot x0 x1 Q K hq hk (k0_pay4 (F := Ideal)) (newRef_real_first x0 x1 Q K hq hk) r d)).trans ?_
  rw [mul_zero, zero_add]

/-! ### The last step's result, and the two stores that only copy -/

theorem out_apply (v44 : Vec Ideal S512x1024 .f32) (v45 : Vec Ideal S512x1024 .f32) (v46 : Vec Ideal S512x1 .f32)
    (A : Fin 512 → Fin 1024 → ℝ) (L : Fin 512 → ℝ)
    (hq : ∀ r d, v44 (ix2 r d) = ((Q r d : ℝ) : EReal)) (ha : ∀ r d, v45 (ix2 r d) = ((A r d : ℝ) : EReal))
    (hl : ∀ r, v46 (ix2 r 0) = ((L r : ℝ) : EReal)) (hL : ∀ r, L r ≠ 0) (r : Fin 512) (d : Fin 1024) :
    k0_pay3 (F := Ideal) v44 v45 v46 (ix2 r d) = ((Q r d + A r d / L r : ℝ) : EReal) := by
  unfold k0_pay3
  refine (addf_apply _ _ _).trans ?_
  rw [EReal.coe_add]
  refine congrArg₂ (· + ·) (hq r d) ((divf_apply _ _ _).trans ?_)
  rw [broadcastTo_col_1024, ha r d, hl r, Ideal.div_coe (hL r), ← EReal.coe_mul]
  exact congrArg _ (by ring)

theorem copy_acc (v : FVec Ideal S512x1024 .f32) : k0_pay1 (F := Ideal) v = v := by
  unfold k0_pay1
  exact shapeCast_self _ _

theorem copy_ref (v : FVec Ideal S512x1 .f32) : k0_pay2 (F := Ideal) v = v := by
  unfold k0_pay2
  exact shapeCast_self _ _

end Cert.Attn.Step

end
-- ==== Proof.Blocks.lean ====
/-
  The blocks a grid point sees. The grid has 16 × 16 points; point t works on query rows 512·(t / 16) … + 511 and on
  key rows 512·(t % 16) … + 511, all 1024 columns of each. The key array is the argument array with every entry
  rounded to a narrower format, which on exact values is the argument array itself. The output block of point t is the
  rows of its query block.
-/
import proofs.«162803_j45526653337862_2_alg».proof.Proof.Gen.KernelIdeal.Frame
import proofs.«162803_j45526653337862_2_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.Attn.Blocks

open Cert.KernelIdeal Cert.KernelIdeal.Gen

variable (m : (ℓ : Loc nD τ sig) → Buf (Elt Ideal) ℓ)

/-- The block indices of the three windows at every grid point: query and output blocks move with t / 16, the key
    block with t % 16; no window moves along the columns. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, _)

theorem N_eq : cfg0.N = 256 := N_0

/-- The row of the array that is row r of point t's query (and output) block. -/
def qrow (t : Fin cfg0.N) (r : Fin 512) : Fin 8192 :=
  ⟨512 * (t.val / 16) + r.val, by have h1 := t.isLt; have h2 : cfg0.N = 256 := N_0; have h3 := r.isLt; omega⟩

/-- The row of the array that is row j of point t's key block. -/
def krow (t : Fin cfg0.N) (j : Fin 512) : Fin 8192 :=
  ⟨512 * (t.val % 16) + j.val, by have h3 := j.isLt; omega⟩

/-- The key array the region finds is the argument array (a change of format is the identity on exact values). -/
theorem keys_eq (c : Dev nD) :
    (V m c main_v0 : S8192x1024.Idx → EReal) = m ((c : Thread nD τ).loc main_arg0) := by
  dsimp only [V, hostOps0]
  after_results
  rfl

/-- Point t's query block, entry by entry. -/
theorem qblock_apply (c : Dev nD) (t : Fin cfg0.N) (r : Fin 512) (d : Fin 1024) :
    (iblk m c 0 t : S512x1024.Idx → EReal) (ix2 r d) = m ((c : Thread nD τ).loc main_arg0) (ix2 (qrow t r) d) := by
  rw [← V_main_arg0 m c]
  show V m c main_arg0 (((cfg0.win 0).blk t).view.emb (ix2 r d)) = V m c main_arg0 (ix2 (qrow t r) d)
  obtain ⟨e0, e1, -⟩ := idx_facts t
  refine congrArg (V m c main_arg0) (funext fun a => Fin.ext ?_)
  match a with
  | ⟨0, _⟩ => show win0_0.index t (0 : Fin 2) * 512 + 1 * r.val = 512 * (t.val / 16) + r.val; omega
  | ⟨1, _⟩ => show win0_0.index t (1 : Fin 2) * 1024 + 1 * d.val = d.val; omega

/-- Point t's key block, entry by entry. -/
theorem kblock_apply (c : Dev nD) (t : Fin cfg0.N) (j : Fin 512) (d : Fin 1024) :
    (iblk m c 1 t : S512x1024.Idx → EReal) (ix2 j d) = m ((c : Thread nD τ).loc main_arg0) (ix2 (krow t j) d) := by
  rw [← keys_eq m c]
  show V m c main_v0 (((cfg0.win 1).blk t).view.emb (ix2 j d)) = V m c main_v0 (ix2 (krow t j) d)
  obtain ⟨-, -, e2, e3, -⟩ := idx_facts t
  refine congrArg (V m c main_v0) (funext fun a => Fin.ext ?_)
  match a with
  | ⟨0, _⟩ => show win0_1.index t (0 : Fin 2) * 512 + 1 * j.val = 512 * (t.val % 16) + j.val; omega
  | ⟨1, _⟩ => show win0_1.index t (1 : Fin 2) * 1024 + 1 * d.val = d.val; omega

end Cert.Attn.Blocks

end
-- ==== Proof.Prefix.lean ====
/-
  Sums over the rows processed so far. A row of the result is accumulated over the 8192 key rows in 16 blocks of 512;
  after k blocks the running sums range over the key rows below 512·k. One more block extends the range by the next 512
  rows; nothing processed is the empty sum; 16 blocks are all rows. A partial sum of exponential weights kept relative
  to a reference value mo moves to the reference value mn by the factor exp (mo - mn).
-/
import proofs.«162803_j45526653337862_2_alg».proof.Proof.SoftmaxLaw

noncomputable section

namespace Cert.Attn

/-- The sum of h over the rows below n. -/
def part (h : Fin 8192 → ℝ) (n : ℕ) : ℝ := ∑ s ∈ Finset.univ.filter (fun s : Fin 8192 => s.val < n), h s

theorem part_zero (h : Fin 8192 → ℝ) : part h 0 = 0 := by
  unfold part
  rw [Finset.filter_false_of_mem (fun s _ => Nat.not_lt_zero _), Finset.sum_empty]

theorem part_full (h : Fin 8192 → ℝ) : part h 8192 = ∑ s, h s := by
  unfold part
  rw [Finset.filter_true_of_mem (fun s _ => s.isLt)]

/-- One more block of 512 rows. -/
theorem part_add_block (h : Fin 8192 → ℝ) (n : ℕ) (hn : n + 512 ≤ 8192) :
    part h (n + 512) = part h n + ∑ j : Fin 512, h ⟨n + j.val, by have := j.isLt; omega⟩ := by
  classical
  unfold part
  have hsplit : (Finset.univ.filter fun s : Fin 8192 => s.val < n + 512)
      = (Finset.univ.filter fun s : Fin 8192 => s.val < n)
        ∪ (Finset.univ.image fun j : Fin 512 => (⟨n + j.val, by have := j.isLt; omega⟩ : Fin 8192)) := by
    ext s
    simp only [Finset.mem_filter, Finset.mem_univ, true_and, Finset.mem_union, Finset.mem_image]
    constructor
    · intro hs
      by_cases h1 : s.val < n
      · exact Or.inl h1
      · exact Or.inr ⟨⟨s.val - n, by omega⟩, Fin.ext (by show n + (s.val - n) = s.val; omega)⟩
    · rintro (h1 | ⟨j, hj⟩)
      · omega
      · have hj' : n + j.val = s.val := congrArg Fin.val hj
        have := j.isLt
        omega
  rw [hsplit, Finset.sum_union, Finset.sum_image]
  · intro a _ b _ hab
    have hab' : n + a.val = n + b.val := congrArg Fin.val hab
    exact Fin.ext (by omega)
  · rw [Finset.disjoint_left]
    intro s hs hs'
    simp only [Finset.mem_filter, Finset.mem_univ, true_and] at hs
    simp only [Finset.mem_image, Finset.mem_univ, true_and] at hs'
    obtain ⟨j, hj⟩ := hs'
    have hj' : n + j.val = s.val := congrArg Fin.val hj
    omega

/-- Moving a partial sum of weights (times any g) from the reference value mo to mn. -/
theorem part_rescale (f g : Fin 8192 → ℝ) (mo mn : ℝ) (n : ℕ) :
    Real.exp (mo - mn) * part (fun s => Real.exp (f s - mo) * g s) n = part (fun s => Real.exp (f s - mn) * g s) n := by
  unfold part
  rw [Finset.mul_sum]
  exact Finset.sum_congr rfl fun s _ => by rw [← mul_assoc, exp_rescale]

/-- The same without a second factor. -/
theorem part_rescale_one (f : Fin 8192 → ℝ) (mo mn : ℝ) (n : ℕ) :
    Real.exp (mo - mn) * part (fun s => Real.exp (f s - mo)) n = part (fun s => Real.exp (f s - mn)) n := by
  unfold part
  rw [Finset.mul_sum]
  exact Finset.sum_congr rfl fun s _ => exp_rescale mo mn (f s)

end Cert.Attn

end
-- ==== Proof.Invariant.lean ====
/-
  The running sums of one row of the result, through the 16 steps of its row block.

  After the step that processes key block k (k = 0 … 15) of a query block, for every query row r there is a REAL number
  μ r — the reference value the buffers are kept relative to — such that
      the reference-value buffer holds  μ r,
      the normaliser buffer holds       ∑ over the key rows s below 512·(k+1) of  exp (σ r s - μ r),
      the weighted-sum buffer holds     ∑ over the same s of                      exp (σ r s - μ r) * X s d,
  σ r s the scaled inner product of query row r and key row s. The first step establishes this from the reset values
  (-∞, 0, 0); each later step moves the two sums to the new reference value by the factor exp (μ - μ') and adds its
  block. After the last step the sums range over all rows, and the output block is the row plus weighted sum over
  normaliser — the softmax-weighted average, which does not depend on μ.
-/
import proofs.«162803_j45526653337862_2_alg».proof.Proof.Pieces
import proofs.«162803_j45526653337862_2_alg».proof.Proof.Payload
import proofs.«162803_j45526653337862_2_alg».proof.Proof.Blocks
import proofs.«162803_j45526653337862_2_alg».proof.Proof.Prefix

set_option maxRecDepth 16384

noncomputable section

open Idealize.ShloMosaic Idealize.ShloMosaic.TcCoe Idealize.SL.Sem Idealize.ShloMosaic.ValueIdx
open Idealize.ShloMosaic.Pipeline (Dat)

namespace Cert.Attn.Run

open Cert.KernelIdeal Cert.KernelIdeal.Gen Cert.Attn.Blocks Cert.Attn.Step

/-! ## One step, over any blocks whose entries are rows of a real matrix -/

section steps

variable (x0 : Vec Ideal S512x1024 .f32) (x1 : Vec Ideal S512x1024 .bf16)
variable (X : Fin 8192 → Fin 1024 → ℝ) (qr kr : Fin 512 → Fin 8192)

/-- A later step: the three buffers relative to μ over the rows below n become the three buffers relative to a new
    real reference value over the rows below n + 512. -/
theorem later_step (xs0 : Vec Ideal S512x1024 .f32) (xs1 xs2 : Vec Ideal S512x1 .f32)
    (n : ℕ) (hn : n + 512 ≤ 8192) (hkr : ∀ j : Fin 512, kr j = ⟨n + j.val, by have := j.isLt; omega⟩)
    (hq : ∀ r d, x0 (ix2 r d) = ((X (qr r) d : ℝ) : EReal)) (hk : ∀ j d, x1 (ix2 j d) = ((X (kr j) d : ℝ) : EReal))
    (μ : Fin 512 → ℝ) (hm : ∀ r, xs1 (ix2 r 0) = ((μ r : ℝ) : EReal))
    (hl : ∀ r, xs2 (ix2 r 0) = ((part (fun s => Real.exp (score X (qr r) s - μ r)) n : ℝ) : EReal))
    (ha : ∀ r d, xs0 (ix2 r d) = ((part (fun s => Real.exp (score X (qr r) s - μ r) * X s d) n : ℝ) : EReal)) :
    ∃ μ' : Fin 512 → ℝ,
      (∀ r, k0_pay2 (F := Ideal) (k0_pay9 x0 x1 xs1) (ix2 r 0) = ((μ' r : ℝ) : EReal))
      ∧ (∀ r, k0_pay12 (F := Ideal) x0 x1 xs1 xs1 xs2 (ix2 r 0)
            = ((part (fun s => Real.exp (score X (qr r) s - μ' r)) (n + 512) : ℝ) : EReal))
      ∧ (∀ r d, k0_pay1 (F := Ideal) (k0_pay13 x0 x1 xs1 xs1 xs0) (ix2 r d)
            = ((part (fun s => Real.exp (score X (qr r) s - μ' r) * X s d) (n + 512) : ℝ) : EReal)) := by
  refine ⟨newRef x0 x1 xs1, fun r => ?_, fun r => ?_, fun r d => ?_⟩
  · rw [copy_ref]
    exact newRef_real x0 x1 (fun r d => X (qr r) d) (fun j d => X (kr j) d) hq hk xs1 μ hm r
  · rw [norm_apply x0 x1 (fun r d => X (qr r) d) (fun j d => X (kr j) d) hq hk xs1 μ hm xs2 _ hl r]
    refine congrArg (fun z : ℝ => (z : EReal)) ?_
    rw [part_rescale_one (fun s => score X (qr r) s) (μ r) (newRef x0 x1 xs1 r) n, part_add_block _ n hn]
    refine congrArg _ (Finset.sum_congr rfl fun j _ => ?_)
    show Real.exp (score X (qr r) (kr j) - _) = Real.exp (score X (qr r) _ - _)
    rw [hkr j]
  · rw [copy_acc, acc_apply x0 x1 (fun r d => X (qr r) d) (fun j d => X (kr j) d) hq hk xs1 μ hm xs0 _ ha r d]
    refine congrArg (fun z : ℝ => (z : EReal)) ?_
    rw [part_rescale (fun s => score X (qr r) s) (fun s => X s d) (μ r) (newRef x0 x1 xs1 r) n, part_add_block _ n hn]
    refine congrArg _ (Finset.sum_congr rfl fun j _ => ?_)
    show Real.exp (score X (qr r) (kr j) - _) * X (kr j) d = Real.exp (score X (qr r) _ - _) * X _ d
    rw [hkr j]

/-- The first step of a row: from the reset values to the three buffers over the first 512 key rows. -/
theorem first_step (hkr : ∀ j : Fin 512, kr j = ⟨0 + j.val, by have := j.isLt; omega⟩)
    (hq : ∀ r d, x0 (ix2 r d) = ((X (qr r) d : ℝ) : EReal)) (hk : ∀ j d, x1 (ix2 j d) = ((X (kr j) d : ℝ) : EReal)) :
    ∃ μ' : Fin 512 → ℝ,
      (∀ r, k0_pay2 (F := Ideal) (k0_pay9 x0 x1 (k0_pay4 (F := Ideal))) (ix2 r 0) = ((μ' r : ℝ) : EReal))
      ∧ (∀ r, k0_pay12 (F := Ideal) x0 x1 (k0_pay4 (F := Ideal)) (k0_pay4 (F := Ideal)) (k0_pay5 (F := Ideal)) (ix2 r 0)
            = ((part (fun s => Real.exp (score X (qr r) s - μ' r)) (0 + 512) : ℝ) : EReal))
      ∧ (∀ r d, k0_pay1 (F := Ideal) (k0_pay13 x0 x1 (k0_pay4 (F := Ideal)) (k0_pay4 (F := Ideal)) (k0_pay6 (F := Ideal))) (ix2 r d)
            = ((part (fun s => Real.exp (score X (qr r) s - μ' r) * X s d) (0 + 512) : ℝ) : EReal)) := by
  refine ⟨newRef x0 x1 (k0_pay4 (F := Ideal)), fun r => ?_, fun r => ?_, fun r d => ?_⟩
  · rw [copy_ref]
    exact newRef_real_first x0 x1 (fun r d => X (qr r) d) (fun j d => X (kr j) d) hq hk r
  · rw [norm_apply_first x0 x1 (fun r d => X (qr r) d) (fun j d => X (kr j) d) hq hk r]
    refine congrArg (fun z : ℝ => (z : EReal)) ?_
    rw [part_add_block _ 0 (by norm_num), part_zero, zero_add]
    refine Finset.sum_congr rfl fun j _ => ?_
    show Real.exp (score X (qr r) (kr j) - _) = Real.exp (score X (qr r) _ - _)
    rw [hkr j]
  · rw [copy_acc, acc_apply_first x0 x1 (fun r d => X (qr r) d) (fun j d => X (kr j) d) hq hk r d]
    refine congrArg (fun z : ℝ => (z : EReal)) ?_
    rw [part_add_block _ 0 (by norm_num), part_zero, zero_add]
    refine Finset.sum_congr rfl fun j _ => ?_
    show Real.exp (score X (qr r) (kr j) - _) * X (kr j) d = Real.exp (score X (qr r) _ - _) * X _ d
    rw [hkr j]

/-- After the last step: the row plus weighted sum over normaliser is the specification's value. -/
theorem last_out (acc : Vec Ideal S512x1024 .f32) (l : Vec Ideal S512x1 .f32) (μ : Fin 512 → ℝ)
    (hq : ∀ r d, x0 (ix2 r d) = ((X (qr r) d : ℝ) : EReal))
    (hl : ∀ r, l (ix2 r 0) = ((part (fun s => Real.exp (score X (qr r) s - μ r)) 8192 : ℝ) : EReal))
    (ha : ∀ r d, acc (ix2 r d) = ((part (fun s => Real.exp (score X (qr r) s - μ r) * X s d) 8192 : ℝ) : EReal))
    (r : Fin 512) (d : Fin 1024) :
    k0_pay3 (F := Ideal) x0 acc l (ix2 r d) = ((attend X (qr r) d : ℝ) : EReal) := by
  have hL : ∀ r, part (fun s => Real.exp (score X (qr r) s - μ r)) 8192 ≠ 0 := fun r => by
    rw [part_full]; exact (sum_exp_pos _).ne'
  rw [out_apply (fun r d => X (qr r) d) x0 acc l _ _ hq ha hl hL r d]
  refine congrArg (fun z : ℝ => (z : EReal)) ?_
  rw [part_full, part_full]
  unfold attend
  rw [softmax_shift_quot (fun s => score X (qr r) s) (fun s => X s d) (μ r)]

end steps

/-! ## The steps at the grid's points -/

variable (m : (ℓ : Loc nD τ sig) → Buf (Elt Ideal) ℓ) (c : Dev nD)

/-- The argument array's real entries. -/
abbrev X : Fin 8192 → Fin 1024 → ℝ := entry (m ((c : Thread nD τ).loc main_arg0))

/-- What the three carried buffers hold after point t. -/
def Inv (n : ℕ) (h : n < cfg0.N) : Prop :=
  ∃ μ : Fin 512 → ℝ,
    (∀ r : Fin 512, ((outsAt0 m c n h).2.2.1 : S512x1.Idx → EReal) (ix2 r 0) = ((μ r : ℝ) : EReal))
    ∧ (∀ r : Fin 512, ((outsAt0 m c n h).2.2.2 : S512x1.Idx → EReal) (ix2 r 0)
          = ((part (fun s => Real.exp (score (X m c) (qrow ⟨n, h⟩ r) s - μ r)) (512 * (n % 16) + 512) : ℝ) : EReal))
    ∧ (∀ (r : Fin 512) (d : Fin 1024), ((outsAt0 m c n h).2.1 : S512x1024.Idx → EReal) (ix2 r d)
          = ((part (fun s => Real.exp (score (X m c) (qrow ⟨n, h⟩ r) s - μ r) * X m c s d) (512 * (n % 16) + 512) : ℝ) : EReal))

variable (hfin : Finite (m ((c : Thread nD τ).loc main_arg0)))
include hfin

theorem hq (t : Fin cfg0.N) (r : Fin 512) (d : Fin 1024) :
    (iblk m c 0 t : S512x1024.Idx → EReal) (ix2 r d) = ((X m c (qrow t r) d : ℝ) : EReal) := by
  rw [qblock_apply]; exact hfin.eq_coe _ _

theorem hk (t : Fin cfg0.N) (j : Fin 512) (d : Fin 1024) :
    (iblk m c 1 t : S512x1024.Idx → EReal) (ix2 j d) = ((X m c (krow t j) d : ℝ) : EReal) := by
  rw [kblock_apply]; exact hfin.eq_coe _ _

/-- The first point of a row block. -/
theorem inv_first (t : Fin cfg0.N) (h0 : t.val % 16 = 0) : Inv m c t.val t.isLt := by
  have h1 : ¬t.val % 16 = 15 := by omega
  obtain ⟨μ', e1, e2, e3⟩ := first_step (iblk m c 0 t) (iblk m c 1 t) (X m c) (qrow t) (krow t)
    (fun j => Fin.ext (by show 512 * (t.val % 16) + j.val = 0 + j.val; omega)) (hq m c hfin t) (hk m c hfin t)
  have e := outsAt0_A m c t h0 h1
  unfold Inv
  rw [e]
  dsimp only
  have hn : 512 * (t.val % 16) + 512 = 0 + 512 := by omega
  rw [hn]
  refine ⟨μ', fun r => ?_, fun r => ?_, fun r d => ?_⟩
  · exact (congrFun (Pieces.ref_A (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) (ix2 r 0)).trans (e1 r)
  · exact (congrFun (Pieces.norm_A (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) (ix2 r 0)).trans (e2 r)
  · exact (congrFun (Pieces.acc_A (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) (ix2 r d)).trans (e3 r d)

/-- What a later point of a row block needs of the point before, and the step it then makes. -/
theorem later_data (t : Fin cfg0.N) (h0 : ¬t.val % 16 = 0)
    (hprev : Inv m c (t.val - 1) (Nat.lt_of_le_of_lt (Nat.sub_le _ _) t.isLt)) :
    ∃ μ' : Fin 512 → ℝ,
      (∀ r, k0_pay2 (F := Ideal) (k0_pay9 (iblk m c 0 t) (iblk m c 1 t) (outsAt0 m c (t.val - 1) (Nat.lt_of_le_of_lt (Nat.sub_le _ _) t.isLt)).2.2.1) (ix2 r 0) = ((μ' r : ℝ) : EReal))
      ∧ (∀ r, k0_pay12 (F := Ideal) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.1 (outsAt0 m c (t.val - 1) (Nat.lt_of_le_of_lt (Nat.sub_le _ _) t.isLt)).2.2.2 (ix2 r 0)
            = ((part (fun s => Real.exp (score (X m c) (qrow t r) s - μ' r)) (512 * (t.val % 16) + 512) : ℝ) : EReal))
      ∧ (∀ r d, k0_pay1 (F := Ideal) (k0_pay13 (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.1 (outsAt0 m c (t.val - 1) (Nat.lt_of_le_of_lt (Nat.sub_le _ _) t.isLt)).2.1) (ix2 r d)
            = ((part (fun s => Real.exp (score (X m c) (qrow t r) s - μ' r) * X m c s d) (512 * (t.val % 16) + 512) : ℝ) : EReal)) := by
  obtain ⟨μ, p1, p2, p3⟩ := hprev
  have hN : cfg0.N = 256 := N_0
  have ht := t.isLt
  have hrow : ∀ r, qrow ⟨t.val - 1, Nat.lt_of_le_of_lt (Nat.sub_le _ _) t.isLt⟩ r = qrow t r := fun r =>
    Fin.ext (by show 512 * ((t.val - 1) / 16) + r.val = 512 * (t.val / 16) + r.val; omega)
  have hn' : 512 * ((t.val - 1) % 16) + 512 = 512 * (t.val % 16) := by omega
  simp only [hrow, hn'] at p2 p3
  exact later_step (iblk m c 0 t) (iblk m c 1 t) (X m c) (qrow t) (krow t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2
    (512 * (t.val % 16)) (by omega) (fun j => Fin.ext rfl) (hq m c hfin t) (hk m c hfin t) μ p1 p2 p3

/-- A later point of a row block, given the point before. -/
theorem inv_later (t : Fin cfg0.N) (h0 : ¬t.val % 16 = 0)
    (hprev : Inv m c (t.val - 1) (Nat.lt_of_le_of_lt (Nat.sub_le _ _) t.isLt)) : Inv m c t.val t.isLt := by
  obtain ⟨μ', e1, e2, e3⟩ := later_data m c hfin t h0 hprev
  by_cases h1 : t.val % 16 = 15
  · have e := outsAt0_C m c t h0 h1
    unfold Inv
    rw [e]
    dsimp only
    refine ⟨μ', fun r => ?_, fun r => ?_, fun r d => ?_⟩
    · exact (congrFun (Pieces.ref_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r 0)).trans (e1 r)
    · exact (congrFun (Pieces.norm_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r 0)).trans (e2 r)
    · exact (congrFun (Pieces.acc_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r d)).trans (e3 r d)
  · have e := outsAt0_B m c t h0 h1
    unfold Inv
    rw [e]
    dsimp only
    refine ⟨μ', fun r => ?_, fun r => ?_, fun r d => ?_⟩
    · exact (congrFun (Pieces.ref_B (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r 0)).trans (e1 r)
    · exact (congrFun (Pieces.norm_B (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r 0)).trans (e2 r)
    · exact (congrFun (Pieces.acc_B (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r d)).trans (e3 r d)

/-- The buffers after every point, by induction along the grid. -/
theorem inv : ∀ (n : ℕ) (h : n < cfg0.N), Inv m c n h := by
  intro n
  induction n with
  | zero => intro h; exact inv_first m c hfin ⟨0, h⟩ rfl
  | succ n ih =>
    intro h
    by_cases h0 : (n + 1) % 16 = 0
    · exact inv_first m c hfin ⟨n + 1, h⟩ h0
    · exact inv_later m c hfin ⟨n + 1, h⟩ h0 (ih _)

/-- The output block after the last step of a row block: the specification's rows. -/
theorem out_block (t : Fin cfg0.N) (h1 : t.val % 16 = 15) (r : Fin 512) (d : Fin 1024) :
    ((outsAt0 m c t.val t.isLt).1 : S512x1024.Idx → EReal) (ix2 r d) = ((attend (X m c) (qrow t r) d : ℝ) : EReal) := by
  have h0 : ¬t.val % 16 = 0 := by omega
  obtain ⟨μ', e1, e2, e3⟩ := later_data m c hfin t h0 (inv m c hfin _ _)
  have h8 : 512 * (t.val % 16) + 512 = 8192 := by omega
  rw [h8] at e2 e3
  have e := outsAt0_C m c t h0 h1
  rw [e]
  dsimp only
  refine (congrFun (Pieces.out_C (F := Ideal) c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 r d)).trans ?_
  exact last_out (iblk m c 0 t) (X m c) (qrow t) _ _ μ' (hq m c hfin t) e2 e3 r d

end Cert.Attn.Run

end
-- ==== Proof.Final.lean ====
/-
  From blocks to the whole array. The grid has 16 × 16 points; the output block of point t, 512 rows by all 1024
  columns, is written back only at the last point of its row block (t % 16 = 15), when the running sums range over
  every row of the array, and it then holds rows 512·(t / 16) … + 511 of the specification. These 16 blocks tile the
  8192 rows, so the result array ends holding the specification everywhere.
-/
import proofs.«162803_j45526653337862_2_alg».proof.Proof.Invariant
import proofs.«162803_j45526653337862_2_alg».proof.Proof.Gen.KernelIdeal.Value

set_option maxRecDepth 16384

noncomputable section

open Idealize.ShloMosaic Idealize.ShloMosaic.TcCoe Idealize.SL.Sem Idealize.ShloMosaic.ValueIdx
open Idealize.ShloMosaic.Pipeline (Dat)

namespace Cert.Attn.Run

open Cert.KernelIdeal Cert.KernelIdeal.Gen Cert.Attn.Blocks

/-! ## What a flushing point writes back -/

section blocks

variable (m : (ℓ : Loc nD τ sig) → Buf (Elt Ideal) ℓ) (c : Dev nD)
variable (hfin : Finite (m ((c : Thread nD τ).loc main_arg0)))
include hfin

/-- The output block is written back only after the last step of a row block, and then it holds the rows
    512·(t / 16) … + 511 of the specification: entry (r, d) of the block sits at row 512·(t / 16) + r, column d. -/
theorem flushed_eq (t : Fin cfg0.N) (hf : (cfg0.win 2).flush t = true) :
    (dats m 0 c).flushed 2 t
      = ((cfg0.win 2).blk t).view.read (Elt Ideal) (G (m ((c : Thread nD τ).loc main_arg0))) := by
  have h1 : t.val % 16 = 15 := (flush0_2 t).mp hf
  rw [Cert.KernelIdeal.Value.flushed2]
  funext j
  show ((outsAt0 m c t.val t.isLt).1 : S512x1024.Idx → EReal) j
      = G (m ((c : Thread nD τ).loc main_arg0)) (((cfg0.win 2).blk t).view.emb j)
  obtain ⟨r, d, rfl⟩ : ∃ (r : Fin 512) (d : Fin 1024), j = ix2 r d := ⟨j 0, j 1, eq_ix2 j⟩
  rw [out_block m c hfin t h1 r d]
  obtain ⟨-, -, -, -, e4, e5⟩ := idx_facts t
  have he : ((cfg0.win 2).blk t).view.emb (ix2 r d) = ix2 (qrow t r) d := by
    funext a; apply Fin.ext
    match a with
    | ⟨0, _⟩ => show win0_2.index t (0 : Fin 2) * 512 + 1 * r.val = 512 * (t.val / 16) + r.val; omega
    | ⟨1, _⟩ => show win0_2.index t (1 : Fin 2) * 1024 + 1 * d.val = d.val; omega
  rw [he]
  rfl

end blocks

/-! ## The blocks of the flushing points tile the array -/

/-- An index of the array is in point t's output block iff each coordinate is in the block's range on its axis. -/
theorem mem_blk (t : Fin cfg0.N) (i : S8192x1024.Idx) :
    i ∈ ((cfg0.win 2).blk t).view.set
      ↔ ∀ a : Fin 2, win0_2.index t a * S512x1024.size a ≤ (i a).val
          ∧ (i a).val < win0_2.index t a * S512x1024.size a + S512x1024.size a := by
  show i ∈ ((View.whole main_v1).slice (win0_2.rect t)).set ↔ _
  rw [View.set_slice_whole, Rect.mem_set_unit]
  exact Iff.rfl

/-- Row i₀ of the array lies in the output block of the last point of row block i₀ / 512, a flushing point. -/
theorem cover (i : S8192x1024.Idx) :
    ∃ t : Fin cfg0.N, (cfg0.win 2).flush t = true ∧ i ∈ ((cfg0.win 2).blk t).view.set := by
  have hi0 : (i 0).val < 8192 := (i 0).isLt
  have hi1 : (i 1).val < 1024 := (i 1).isLt
  have hN : cfg0.N = 256 := N_0
  have hb : 16 * ((i 0).val / 512) + 15 < cfg0.N := by omega
  obtain ⟨t, ht⟩ : ∃ t : Fin cfg0.N, t.val = 16 * ((i 0).val / 512) + 15 := ⟨⟨_, hb⟩, rfl⟩
  obtain ⟨-, -, -, -, e4, e5⟩ := idx_facts t
  refine ⟨t, (flush0_2 t).mpr (by omega), ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1024 ≤ (i 1).val ∧ (i 1).val < win0_2.index t (1 : Fin 2) * 1024 + 1024
    omega

/-! ## The whole array, and the run -/

/-- On an array of real numbers the result array ends holding the specification. -/
theorem final (m : (ℓ : Loc nD τ sig) → Buf (Elt Ideal) ℓ) (c : Dev nD)
    (hfin : Finite (m ((c : Thread nD τ).loc main_arg0))) :
    (dats m 0 c).arrAt 2 cfg0.N = G (m ((c : Thread nD τ).loc main_arg0)) :=
  (dats m 0 c).arrAt_eq_of_cover 2 _ (fun t hf => flushed_eq m c hfin t hf) fun i => cover i

/-- The run, read: where the argument array is real the result array ends at the specification; the argument array
    is unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (Finite (m ((c : Thread nD τ).loc main_arg0)) →
        r.2.mem ((c : Thread nD τ).loc main_v1) = G (m ((c : Thread nD τ).loc main_arg0)))
      ∧ r.2.mem ((c : Thread nD τ).loc main_arg0) = m ((c : Thread nD τ).loc main_arg0) :=
  (θ_run defs _ _).mono (fun r h c => ⟨fun hfin => (h c).1.trans (final m c hfin), (h c).2⟩)
    (Cert.KernelIdeal.Value.run_blocks m ρ)

end Cert.Attn.Run

end
-- ==== Proof.RefSide.lean ====
/-
  The reference, read at an index: scores by an inner product divided by √1024 = 32, the row maximum subtracted,
  exponentials, their row sum, the quotient, the weighted sum of the rows, and the row itself added. The row maximum
  is a real number, so subtracting it does not change the weighted average.
-/
import proofs.«162803_j45526653337862_2_alg».proof.Proof.Gen.ReferenceIdeal.Read
import proofs.«162803_j45526653337862_2_alg».proof.Proof.SoftmaxLaw

noncomputable section

namespace Cert.Attn

open Idealize.ShloMosaic Idealize.ShloMosaic.ValueIdx
open Cert.ReferenceIdeal Cert.ReferenceIdeal.Gen Cert.ReferenceIdeal.Read

/-- The pattern 0x44800000 denotes 1024, whose square root is 32. -/
private theorem sqrt_const (j : S_.Idx) : val_main_v0 (F := Ideal) j = ((32 : ℝ) : EReal) := by
  rw [val_main_v0_apply, val_main_cst_apply]
  have h : Ideal.ofBits .f32 0x44800000#32 = ((1024 : ℝ) : EReal) := by
    simp [Ideal.ofBits, Ideal.ieee, -EReal.coe_mul]; norm_num
  show Ideal.sqrt (Ideal.ofBits .f32 0x44800000#32) = _
  rw [h, Ideal.sqrt_coe, if_neg (by norm_num)]
  have h32 : Real.sqrt 1024 = 32 := by
    rw [show (1024 : ℝ) = 32 ^ 2 by norm_num]; exact Real.sqrt_sq (by norm_num)
  rw [h32]

/-- The pattern 0xFF800000 denotes -∞. -/
private theorem neg_inf_const : Ideal.ofBits .f32 0xFF800000#32 = (⊥ : EReal) := by
  simp [Ideal.ofBits, Ideal.ieee]

/-- The scores: entry (t, s) of the product of the array with its transpose, divided by 32, is a real number. -/
private theorem scores (x : FVec Ideal S8192x1024 .f32) (hx : Finite x) (t s : Fin 8192) :
    val_main_v3 (F := Ideal) x (ix2 t s) = ((score (entry x) t s : ℝ) : EReal) := by
  rw [val_main_v3_apply, val_main_v1_apply, val_main_v2_apply, sqrt_const]
  have el : ∀ k : Fin 1024, lidx_main_v1 (ix2 t s) k = ix2 t k := fun k =>
    funext fun a => Fin.ext (by match a with | ⟨0, _⟩ => rfl | ⟨1, _⟩ => rfl)
  have er : ∀ k : Fin 1024, ridx_main_v1 (ix2 t s) k = ix2 s k := fun k =>
    funext fun a => Fin.ext (by match a with | ⟨0, _⟩ => rfl | ⟨1, _⟩ => rfl)
  simp only [el, er, hx.eq_coe, ← EReal.coe_mul]
  rw [← coe_sum]
  show Ideal.div _ _ = _
  rw [Ideal.div_coe (by norm_num : (32 : ℝ) ≠ 0), ← EReal.coe_mul, ← div_eq_mul_one_div]
  rfl

/-- Row t of the scores with column k put back is the index (t, k). -/
private theorem lift_row (h : S8192x8192.Reduces [1] S8192) (t : Fin 8192) (k : Fin (S8192x8192.size 1)) :
    h.lift (ix1 t) k = ix2 t (⟨k.val, k.isLt⟩ : Fin 8192) := by
  funext c; apply Fin.ext
  fin_cases c <;> rfl

/-- A maximum-reduction from -∞ along the rows of an 8192 × 8192 array is, at row t, the maximum over the row. -/
private theorem rowmax_fold (y : S8192x8192.Idx → EReal) (t : Fin 8192) :
    Host.reduce (FloatOps.maximumf (F := Ideal) (φ := .f32)) y (val_main_cst_0 (F := Ideal))
        reducesTo_S8192x8192_S8192_d1 h_S_ (ix1 t)
      = (Finset.univ : Finset (Fin 8192)).fold max (⊥ : EReal) (fun s => y (ix2 t s)) := by
  have hR : S8192x8192.Reduces [1] S8192 := by decide
  refine (Host.reduce_eq_fold_single (FloatOps.maximumf (F := Ideal) (φ := .f32)) y _
    reducesTo_S8192x8192_S8192_d1 hR h_S_ (ix1 t)).trans ?_
  have hb : val_main_cst_0 (F := Ideal) (Shape.Idx.first h_S_) = (⊥ : EReal) := by
    rw [val_main_cst_0_apply]; exact neg_inf_const
  have hf : (y ∘ hR.lift (ix1 t)) = fun k : Fin 8192 => y (ix2 t k) :=
    funext fun k => congrArg y (lift_row hR t k)
  rw [hb]
  exact congrArg (fun f => Finset.fold max (⊥ : EReal) f (Finset.univ : Finset (Fin 8192))) hf

/-- The row maximum of the scores, taken once more against -∞, is a real number. -/
private theorem rowmax_real (x : FVec Ideal S8192x1024 .f32) (hx : Finite x) (t : Fin 8192) :
    ∃ M : ℝ, val_main_v6 (F := Ideal) x (ix1 t) = ((M : ℝ) : EReal) := by
  obtain ⟨M, hM⟩ := fold_max_coe (Finset.univ : Finset (Fin 8192)) Finset.univ_nonempty
    (fun s => score (entry x) t s)
  refine ⟨M, ?_⟩
  have h4 : val_main_v4 (F := Ideal) x (ix1 t) = ((M : ℝ) : EReal) := by
    unfold val_main_v4
    rw [rowmax_fold, ← hM]
    exact congrArg (fun f => Finset.fold max (⊥ : EReal) f (Finset.univ : Finset (Fin 8192)))
      (funext fun s => scores x hx t s)
  rw [val_main_v6_apply, h4, val_main_v5_apply, val_main_cst_1_apply]
  show max (Ideal.ofBits .f32 0xFF800000#32) ((M : ℝ) : EReal) = _
  rw [neg_inf_const]
  exact max_eq_right bot_le

/-- The value subtracted from the scores of row t is the row's maximum, whatever the column. -/
private theorem shift_at (x : FVec Ideal S8192x1024 .f32) (t s : Fin 8192) :
    val_main_v8 (F := Ideal) x (ix2 t s) = val_main_v6 (F := Ideal) x (ix1 t) := by
  rw [val_main_v8_apply, val_main_v7_apply]
  exact congrArg _ (funext fun a => Fin.ext (by match a with | ⟨0, _⟩ => rfl))

/-- The normaliser of row t is the row's sum, whatever the column. -/
private theorem norm_at (x : FVec Ideal S8192x1024 .f32) (t s : Fin 8192) :
    val_main_v13 (F := Ideal) x (ix2 t s) = val_main_v11 (F := Ideal) x (ix1 t) := by
  rw [val_main_v13_apply, val_main_v12_apply]
  exact congrArg _ (funext fun a => Fin.ext (by match a with | ⟨0, _⟩ => rfl))

/-- The shifted exponentials are real numbers. -/
private theorem expo (x : FVec Ideal S8192x1024 .f32) (hx : Finite x) (t s : Fin 8192) (M : ℝ)
    (hM : val_main_v6 (F := Ideal) x (ix1 t) = ((M : ℝ) : EReal)) :
    val_main_v10 (F := Ideal) x (ix2 t s) = ((Real.exp (score (entry x) t s - M) : ℝ) : EReal) := by
  rw [val_main_v10_apply, val_main_v9_apply, scores x hx, shift_at, hM]
  show Ideal.exp (((score (entry x) t s : ℝ) : EReal) - ((M : ℝ) : EReal)) = _
  rw [← EReal.coe_sub, Ideal.exp_coe]

/-- The row sum of the shifted exponentials is a real number. -/
private theorem rowsum (x : FVec Ideal S8192x1024 .f32) (hx : Finite x) (t : Fin 8192) (M : ℝ)
    (hM : val_main_v6 (F := Ideal) x (ix1 t) = ((M : ℝ) : EReal)) :
    val_main_v11 (F := Ideal) x (ix1 t)
      = ((∑ s : Fin 8192, Real.exp (score (entry x) t s - M) : ℝ) : EReal) := by
  rw [val_main_v11_apply, val_main_cst_2_apply]
  have e : ∀ k : Fin 8192, idx_main_v11 (ix1 t) k = ix2 t k := fun k =>
    funext fun a => Fin.ext (by match a with | ⟨0, _⟩ => rfl | ⟨1, _⟩ => rfl)
  simp only [e, expo x hx t _ M hM]
  rw [← coe_sum]
  show Ideal.ofBits .f32 0x00000000#32 + _ = _
  rw [Ideal.ofBits_zero_f32, zero_add]

/-- The softmax weights, relative to the row maximum, are real numbers. -/
private theorem weight (x : FVec Ideal S8192x1024 .f32) (hx : Finite x) (t s : Fin 8192) (M : ℝ)
    (hM : val_main_v6 (F := Ideal) x (ix1 t) = ((M : ℝ) : EReal)) :
    val_main_v14 (F := Ideal) x (ix2 t s)
      = ((Real.exp (score (entry x) t s - M) / ∑ s' : Fin 8192, Real.exp (score (entry x) t s' - M) : ℝ) : EReal) := by
  haveI : Nonempty (Fin 8192) := ⟨⟨0, by norm_num⟩⟩
  have hpos : (0 : ℝ) < ∑ s' : Fin 8192, Real.exp (score (entry x) t s' - M) :=
    sum_exp_pos (fun s' : Fin 8192 => score (entry x) t s' - M)
  rw [val_main_v14_apply, expo x hx t s M hM, norm_at, rowsum x hx t M hM]
  show Ideal.div _ _ = _
  rw [Ideal.div_coe (ne_of_gt hpos), ← EReal.coe_mul, ← div_eq_mul_one_div]

/-- On an array of real numbers the reference's result is the specification. -/
theorem ref_eq (x : FVec Ideal Cert.ReferenceIdeal.S8192x1024 .f32) (hx : Finite x) :
    Cert.ReferenceIdeal.Read.val_main_v16 (F := Ideal) x = G x := by
  funext i
  obtain ⟨t, d, rfl⟩ : ∃ (t : Fin 8192) (d : Fin 1024), i = ix2 t d := ⟨i 0, i 1, eq_ix2 i⟩
  obtain ⟨M, hM⟩ := rowmax_real x hx t
  haveI : Nonempty (Fin 8192) := ⟨⟨0, by norm_num⟩⟩
  rw [val_main_v16_apply, val_main_v15_apply]
  have el : ∀ k : Fin 8192, lidx_main_v15 (ix2 t d) k = ix2 t k := fun k =>
    funext fun a => Fin.ext (by match a with | ⟨0, _⟩ => rfl | ⟨1, _⟩ => rfl)
  have er : ∀ k : Fin 8192, ridx_main_v15 (ix2 t d) k = ix2 k d := fun k =>
    funext fun a => Fin.ext (by match a with | ⟨0, _⟩ => rfl | ⟨1, _⟩ => rfl)
  simp only [el, er, weight x hx t _ M hM, hx.eq_coe, ← EReal.coe_mul]
  rw [← coe_sum]
  show ((entry x t d : ℝ) : EReal) + _ = ((attend (entry x) t d : ℝ) : EReal)
  rw [← EReal.coe_add]
  unfold attend
  rw [softmax_shift_sum (fun s : Fin 8192 => score (entry x) t s) (fun s : Fin 8192 => entry x s d) M]

end Cert.Attn

end
-- ==== Proof.Finite.lean ====
/-
  The precondition says that every entry of the argument array has absolute value below +∞; on the extended reals
  that is: every entry is a real number.
-/
import proofs.«162803_j45526653337862_2_alg».proof.Defs
import proofs.«162803_j45526653337862_2_alg».proof.Proof.Gen.Pre_finite_inputs
import proofs.«162803_j45526653337862_2_alg».proof.Proof.Spec
import Idealize.ShloMosaic.Lib.ReduceAll

noncomputable section

namespace Cert.Attn

open Idealize.ShloMosaic

/-- An extended real whose absolute value max e (-e) lies strictly below +∞ is neither +∞ nor -∞. -/
private theorem ne_top_bot_of_abs_lt_top (e : EReal) (h : max e (-e) < ⊤) : e ≠ ⊤ ∧ e ≠ ⊥ := by
  induction e using EReal.rec with
  | bot => exact absurd h (by simp)
  | coe r => exact ⟨EReal.coe_ne_top r, EReal.coe_ne_bot r⟩
  | top => exact absurd h (by simp)

/-- If the finiteness test of the argument array answers true, every entry of the array is a real number. -/
theorem finite_of_pre [Cert.Pre_finite_inputs.Facts] (x : FVec Ideal Cert.Pre_finite_inputs.S8192x1024 .f32)
    (h : Cert.Pre_finite_inputs.fn (F := Ideal) x = fun _ => 1#1) : Finite x := by
  intro i
  -- the result of a reduction over every axis has exactly one index
  haveI : Subsingleton Cert.Pre_finite_inputs.S_.Idx := ⟨fun _ _ => funext fun d => d.elim0⟩
  -- the and-reduction over all entries answered true, so the comparison at entry i answered true
  have h0 := congrFun h ValueIdx.ix0
  dsimp only [Cert.Pre_finite_inputs.fn] at h0
  have hi := Host.reduce_andi_all _ _ _ _ _ h0 i
  -- the comparison at entry i is: |x i| < the value of the pattern 0x7F800000, which is +∞
  have hc : Ideal.cmp .olt (max (x i) (-(x i))) (Ideal.ofBits .f32 0x7F800000#32) = 1#1 := hi
  have htop : Ideal.ofBits .f32 0x7F800000#32 = (⊤ : EReal) := by simp [Ideal.ofBits, Ideal.ieee]
  rw [htop] at hc
  refine ne_top_bot_of_abs_lt_top (x i) ?_
  by_contra hn
  simp [Ideal.cmp, hn] at hc

end Cert.Attn

end
-- ==== Proof.lean ====
/-
  A streaming (blockwise, single-pass) softmax attention with residual against the plain two-pass one.

  Both programs take one array x of 8192 rows of 1024 numbers, used as queries, keys and values alike, and return
      x[t,d] + (∑ s, exp (σ t s) * x[s,d]) / (∑ s, exp (σ t s)),        σ t s = (∑ d, x[t,d] * x[s,d]) / 32.
  The reference forms all scores of a row, subtracts the row's maximum, exponentiates, normalises and averages. The
  kernel multiplies the query rows by 1/32 first (32 = √1024 exactly), walks over the keys in 16 blocks of 512, and
  keeps per query row a running reference value, a running normaliser and a running weighted sum, rescaling the two
  sums by the exponential of the change of the reference value at every block; after the last block it adds the row
  to the quotient of the two sums.
  The two agree on every array of real numbers because the softmax-weighted average is unchanged when one real number
  is subtracted from all scores of a row — the reference's maximum and the kernel's running value are both such a
  number — and because finite sums of reals may be regrouped and rescaled freely. Finiteness of the entries is used:
  at an infinite entry the products and differences above have no meaning to preserve.
  The kernel's idealization rewrote nothing, so that conjunct is trivial; the three frames are the generated ones.
-/
import proofs.«162803_j45526653337862_2_alg».proof.Defs
import proofs.«162803_j45526653337862_2_alg».proof.Proof.Gen.Kernel
import proofs.«162803_j45526653337862_2_alg».proof.Proof.Gen.Kernel.Skeleton
import proofs.«162803_j45526653337862_2_alg».proof.Proof.Gen.Kernel.Launch
import proofs.«162803_j45526653337862_2_alg».proof.Proof.Gen.Kernel.Points
import proofs.«162803_j45526653337862_2_alg».proof.Proof.Gen.Kernel.Frame
import proofs.«162803_j45526653337862_2_alg».proof.Proof.Gen.KernelIdeal
import proofs.«162803_j45526653337862_2_alg».proof.Proof.Gen.KernelIdeal.Skeleton
import proofs.«162803_j45526653337862_2_alg».proof.Proof.Gen.KernelIdeal.Launch
import proofs.«162803_j45526653337862_2_alg».proof.Proof.Gen.KernelIdeal.Points
import proofs.«162803_j45526653337862_2_alg».proof.Proof.Gen.KernelIdeal.Frame
import proofs.«162803_j45526653337862_2_alg».proof.Proof.Gen.ReferenceIdeal
import proofs.«162803_j45526653337862_2_alg».proof.Proof.Gen.Pre_finite_inputs
import proofs.«162803_j45526653337862_2_alg».proof.Proof.Gen.KernelIdeal.Value
import proofs.«162803_j45526653337862_2_alg».proof.Proof.Gen.ReferenceIdeal.Run
import proofs.«162803_j45526653337862_2_alg».proof.Proof.Gen.ReferenceIdeal.Read
import proofs.«162803_j45526653337862_2_alg».proof.Proof.Final
import proofs.«162803_j45526653337862_2_alg».proof.Proof.RefSide
import proofs.«162803_j45526653337862_2_alg».proof.Proof.Finite
import Idealize.ShloMosaic.Adequacy
import Idealize.ShloMosaic.Init

noncomputable section

namespace Cert.Proof

open Idealize.ShloMosaic Idealize.ShloMosaic.TcCoe Idealize.SL.Sem

section claims

variable [hK : Cert.Kernel.Facts] [hKI : Cert.KernelIdeal.Facts] [hRI : Cert.ReferenceIdeal.Facts] [hP : Cert.Pre_finite_inputs.Facts]

/-- The kernel as printed runs, and leaves its argument as it was. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a sequence of whole-array operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- On arrays of real numbers both programs end at the softmax-weighted average plus the row. -/
theorem algebraic : Cert.algebraic_KernelIdeal_ReferenceIdeal := by
  intro m ρ m' ρ' hpre hagree
  have hfin : ∀ c : Dev Cert.KernelIdeal.nD,
      Cert.Attn.Finite (m ((c.tc : Thread Cert.KernelIdeal.nD Cert.KernelIdeal.τ).loc Cert.KernelIdeal.main_arg0)) :=
    fun c => Cert.Attn.finite_of_pre _ (hpre c)
  refine ⟨fun c => Cert.Attn.G (m ((c.tc : Thread Cert.KernelIdeal.nD Cert.KernelIdeal.τ).loc Cert.KernelIdeal.main_arg0)), ?_, ?_⟩
  · exact (θ_run Cert.KernelIdeal.defs _ _).mono (fun r h c => ⟨(h c).1 (hfin c), (h c).2⟩) (Cert.Attn.Run.run m ρ)
  · refine (θ_run Cert.ReferenceIdeal.defs _ _).mono (fun r h c => ⟨?_, (h c).2⟩)
      (Cert.ReferenceIdeal.Value.run (F := Ideal) m' ρ')
    refine (h c).1.trans ((Cert.ReferenceIdeal.Read.val_main_v16_eq _).trans ?_)
    rw [hagree c]
    exact Cert.Attn.ref_eq _ (hfin c)

end claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
